-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1x512x512 : Shape := ⟨5, ![8, 16, 1, 512, 512]⟩
abbrev S8x1x1x1 : Shape := ⟨4, ![8, 1, 1, 1]⟩
abbrev S8x16 : Shape := ⟨2, ![8, 16]⟩
abbrev S_ : Shape := ⟨0, ![]⟩

class Facts : Prop where
  bcast_S_S8x16x1x512x512 : S_.BroadcastsInDim S8x16x1x512x512 (![] : Fin 0 → Fin S8x16x1x512x512.rank)
  reducesTo_S8x16x1x512x512_S_d0_1_2_3_4 : S8x16x1x512x512.ReducesTo [0, 1, 2, 3, 4] S_
  h_S_ : 0 < S_.numel
  bcast_S_S8x1x1x1 : S_.BroadcastsInDim S8x1x1x1 (![] : Fin 0 → Fin S8x1x1x1.rank)
  reducesTo_S8x1x1x1_S_d0_1_2_3 : S8x1x1x1.ReducesTo [0, 1, 2, 3] S_

variable [Facts]

def fn {F : FTy → Type} [FloatOps F] (main_arg0 : FVec F S8x16x1x512x512 .f32) (main_arg1 : FVec F S8x1x1x1 .f32) (main_arg2 : FVec F S8x1x1x1 .f32) (main_arg3 : IVec S8x16 32) : IVec S_ 1 :=
  let main_v0 : FVec F S8x16x1x512x512 .f32 := Host.absf main_arg0
  let main_cst : FVec F S_ .f32 := constant S_ .f32 0x7F800000#32
  let main_v1 : FVec F S8x16x1x512x512 .f32 := broadcastInDim S8x16x1x512x512 ![] bcast_S_S8x16x1x512x512 main_cst
  let main_v2 : IVec S8x16x1x512x512 1 := cmpf .olt main_v0 main_v1
  let main_c : IVec S_ 1 := constantI S_ 1 1#1
  let main_v3 : IVec S_ 1 := (fun x v => Host.reduce IntOp.andi x v reducesTo_S8x16x1x512x512_S_d0_1_2_3_4 h_S_) main_v2 main_c
  let main_v4 : FVec F S8x1x1x1 .f32 := Host.absf main_arg1
  let main_cst_0 : FVec F S_ .f32 := constant S_ .f32 0x7F800000#32
  let main_v5 : FVec F S8x1x1x1 .f32 := broadcastInDim S8x1x1x1 ![] bcast_S_S8x1x1x1 main_cst_0
  let main_v6 : IVec S8x1x1x1 1 := cmpf .olt main_v4 main_v5
  let main_c_1 : IVec S_ 1 := constantI S_ 1 1#1
  let main_v7 : IVec S_ 1 := (fun x v => Host.reduce IntOp.andi x v reducesTo_S8x1x1x1_S_d0_1_2_3 h_S_) main_v6 main_c_1
  let main_v8 : IVec S_ 1 := andi main_v3 main_v7
  let main_v9 : FVec F S8x1x1x1 .f32 := Host.absf main_arg2
  let main_cst_2 : FVec F S_ .f32 := constant S_ .f32 0x7F800000#32
  let main_v10 : FVec F S8x1x1x1 .f32 := broadcastInDim S8x1x1x1 ![] bcast_S_S8x1x1x1 main_cst_2
  let main_v11 : IVec S8x1x1x1 1 := cmpf .olt main_v9 main_v10
  let main_c_3 : IVec S_ 1 := constantI S_ 1 1#1
  let main_v12 : IVec S_ 1 := (fun x v => Host.reduce IntOp.andi x v reducesTo_S8x1x1x1_S_d0_1_2_3 h_S_) main_v11 main_c_3
  let main_v13 : IVec S_ 1 := andi main_v8 main_v12
  main_v13
-- ==== Kernel.lean ====
abbrev S8x16x1x512x512 : Shape := ⟨5, ![8, 16, 1, 512, 512]⟩
abbrev S8x1x1x1 : Shape := ⟨4, ![8, 1, 1, 1]⟩
abbrev S8x16 : Shape := ⟨2, ![8, 16]⟩
abbrev S_ : Shape := ⟨0, ![]⟩
abbrev S8x16x1 : Shape := ⟨3, ![8, 16, 1]⟩
abbrev S8x16x1x1x1 : Shape := ⟨5, ![8, 16, 1, 1, 1]⟩
abbrev S128x512x512 : Shape := ⟨3, ![128, 512, 512]⟩
abbrev S128x1 : Shape := ⟨2, ![128, 1]⟩
abbrev S8x512x512 : Shape := ⟨3, ![8, 512, 512]⟩
abbrev S8x1 : Shape := ⟨2, ![8, 1]⟩
abbrev S8x1x1 : Shape := ⟨3, ![8, 1, 1]⟩

abbrev nBuf : Space → Nat
  | .hbm => 49
  | .vmem => 8
  | .smem => 0
  | _ => 0

abbrev bufTy : (tb : Table) → Fin (tcTables nBuf tb) → BufTy
  | .hbm, ⟨0, _⟩ => ⟨S8x16x1x512x512, .f32⟩
  | .hbm, ⟨1, _⟩ => ⟨S8x1x1x1, .f32⟩
  | .hbm, ⟨2, _⟩ => ⟨S8x1x1x1, .f32⟩
  | .hbm, ⟨3, _⟩ => ⟨S8x16, .i32⟩
  | .hbm, ⟨4, _⟩ => ⟨S_, .i32⟩
  | .hbm, ⟨5, _⟩ => ⟨S8x16, .i32⟩
  | .hbm, ⟨6, _⟩ => ⟨S8x16, .i1⟩
  | .hbm, ⟨7, _⟩ => ⟨S_, .i32⟩
  | .hbm, ⟨8, _⟩ => ⟨S8x16, .i32⟩
  | .hbm, ⟨9, _⟩ => ⟨S8x16, .i1⟩
  | .hbm, ⟨10, _⟩ => ⟨S8x16, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8x16, .i32⟩
  | .hbm, ⟨15, _⟩ => ⟨S8x16, .i32⟩
  | .hbm, ⟨16, _⟩ => ⟨S_, .i32⟩
  | .hbm, ⟨17, _⟩ => ⟨S8x16, .i32⟩
  | .hbm, ⟨18, _⟩ => ⟨S8x16, .i32⟩
  | .hbm, ⟨19, _⟩ => ⟨S_, .i32⟩
  | .hbm, ⟨20, _⟩ => ⟨S8x16, .i32⟩
  | .hbm, ⟨21, _⟩ => ⟨S8x16, .i1⟩
  | .hbm, ⟨22, _⟩ => ⟨S_, .i32⟩
  | .hbm, ⟨23, _⟩ => ⟨S8x16, .i32⟩
  | .hbm, ⟨24, _⟩ => ⟨S8x16, .i32⟩
  | .hbm, ⟨25, _⟩ => ⟨S8x16, .i32⟩
  | .hbm, ⟨26, _⟩ => ⟨S8x16x1, .i32⟩
  | .hbm, ⟨27, _⟩ => ⟨S8x16x1x1x1, .f32⟩
  | .hbm, ⟨28, _⟩ => ⟨S_, .i32⟩
  | .hbm, ⟨29, _⟩ => ⟨S8x16, .i32⟩
  | .hbm, ⟨30, _⟩ => ⟨S8x16, .i1⟩
  | .hbm, ⟨31, _⟩ => ⟨S_, .i32⟩
  | .hbm, ⟨32, _⟩ => ⟨S8x16, .i32⟩
  | .hbm, ⟨33, _⟩ => ⟨S8x16, .i32⟩
  | .hbm, ⟨34, _⟩ => ⟨S8x16, .i32⟩
  | .hbm, ⟨35, _⟩ => ⟨S8x16x1, .i32⟩
  | .hbm, ⟨36, _⟩ => ⟨S8x16x1x1x1, .f32⟩
  | .hbm, ⟨37, _⟩ => ⟨S8x16x1x1x1, .i1⟩
  | .hbm, ⟨38, _⟩ => ⟨S_, .f32⟩
  | .hbm, ⟨39, _⟩ => ⟨S8x16x1x1x1, .f32⟩
  | .hbm, ⟨40, _⟩ => ⟨S8x16x1x1x1, .f32⟩
  | .hbm, ⟨41, _⟩ => ⟨S_, .f32⟩
  | .hbm, ⟨42, _⟩ => ⟨S8x16x1x1x1, .f32⟩
  | .hbm, ⟨43, _⟩ => ⟨S8x16x1x1x1, .f32⟩
  | .hbm, ⟨44, _⟩ => ⟨S128x512x512, .f32⟩
  | .hbm, ⟨45, _⟩ => ⟨S128x1, .f32⟩
  | .hbm, ⟨46, _⟩ => ⟨S128x1, .f32⟩
  | .hbm, ⟨47, _⟩ => ⟨S128x512x512, .f32⟩
  | .hbm, ⟨48, _⟩ => ⟨S8x16x1x512x512, .f32⟩
  | .local _ .vmem, ⟨0, _⟩ => ⟨S8x512x512, .f32⟩
  | .local _ .vmem, ⟨1, _⟩ => ⟨S8x512x512, .f32⟩
  | .local _ .vmem, ⟨2, _⟩ => ⟨S8x1, .f32⟩
  | .local _ .vmem, ⟨3, _⟩ => ⟨S8x1, .f32⟩
  | .local _ .vmem, ⟨4, _⟩ => ⟨S8x1, .f32⟩
  | .local _ .vmem, ⟨5, _⟩ => ⟨S8x1, .f32⟩
  | .local _ .vmem, ⟨6, _⟩ => ⟨S8x512x512, .f32⟩
  | .local _ .vmem, ⟨7, _⟩ => ⟨S8x512x512, .f32⟩
  | _, _ => ⟨S8x16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16_S8x16x1x1x1_0_1 : S8x16.BroadcastsInDim S8x16x1x1x1 (![0, 1] : Fin 2 → Fin S8x16x1x1x1.rank)
  bcast_S_S8x16x1x1x1 : S_.BroadcastsInDim S8x16x1x1x1 (![] : Fin 0 → Fin S8x16x1x1x1.rank)
  shapeCasts_S8x16x1x512x512_S128x512x512 : S8x16x1x512x512.ShapeCasts S128x512x512
  shapeCasts_S8x16x1x1x1_S128x1 : S8x16x1x1x1.ShapeCasts S128x1
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1 : S8x1.ShapeCasts S8x1x1
  broadcasts_S8x1x1_S8x512x512 : S8x1x1.Broadcasts S8x512x512
  shapeCasts_S128x512x512_S8x16x1x512x512 : S128x512x512.ShapeCasts S8x16x1x512x512
  gather_S8x1x1x1_S8x16x1_S8x16x1x1x1_234_0_n_n_0_2_1111_wf : GatherDims.WF S8x1x1x1 S8x16x1 S8x16x1x1x1 [2, 3, 4] [0] [] [0] [] 2 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S128x512x512.size a
  hwx0_0 : ∀ i : grid0.Coords, EltTy.bits .f32 = 32 ∨ (Rect.block (s := S128x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S128x1.size a
  hwx0_1 : ∀ i : grid0.Coords, EltTy.bits .f32 = 32 ∨ (Rect.block (s := S128x1) S8x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S128x1.size a
  hwx0_2 : ∀ i : grid0.Coords, EltTy.bits .f32 = 32 ∨ (Rect.block (s := S128x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S128x512x512.size a
  hwx0_3 : ∀ i : grid0.Coords, EltTy.bits .f32 = 32 ∨ (Rect.block (s := S128x512x512) S8x512x512.size (cc0_transform_3 i) (hinb0_3 i)).WholeWords (EltTy.packing .f32)

variable [Facts₀]

def gather_S8x1x1x1_S8x16x1_S8x16x1x1x1_234_0_n_n_0_2_1111 : GatherDims S8x1x1x1 S8x16x1 S8x16x1x1x1 where
  offsetDims := [2, 3, 4]
  collapsedSliceDims := [0]
  operandBatchingDims := []
  startIndicesBatchingDims := []
  startIndexMap := [0]
  indexVectorDim := 2
  sliceSizes := ![1, 1, 1, 1]
  wf := gather_S8x1x1x1_S8x16x1_S8x16x1x1x1_234_0_n_n_0_2_1111_wf

abbrev win0_0 : Pipeline.Window sig grid0 :=
  Pipeline.Window.ofSpec (Memref.whole main_v25) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S8x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x1x512x512 : Shape := ⟨5, ![8, 16, 1, 512, 512]⟩
abbrev S8x1x1x1 : Shape := ⟨4, ![8, 1, 1, 1]⟩
abbrev S8x16 : Shape := ⟨2, ![8, 16]⟩
abbrev S_ : Shape := ⟨0, ![]⟩
abbrev S8x16x1 : Shape := ⟨3, ![8, 16, 1]⟩
abbrev S8x16x1x1x1 : Shape := ⟨5, ![8, 16, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x16x1x512x512, .f32⟩
  | .hbm, ⟨1, _⟩ => ⟨S8x1x1x1, .f32⟩
  | .hbm, ⟨2, _⟩ => ⟨S8x1x1x1, .f32⟩
  | .hbm, ⟨3, _⟩ => ⟨S8x16, .i32⟩
  | .hbm, ⟨4, _⟩ => ⟨S_, .i32⟩
  | .hbm, ⟨5, _⟩ => ⟨S8x16, .i32⟩
  | .hbm, ⟨6, _⟩ => ⟨S8x16, .i1⟩
  | .hbm, ⟨7, _⟩ => ⟨S_, .i32⟩
  | .hbm, ⟨8, _⟩ => ⟨S8x16, .i32⟩
  | .hbm, ⟨9, _⟩ => ⟨S8x16, .i1⟩
  | .hbm, ⟨10, _⟩ => ⟨S8x16, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8x16, .i32⟩
  | .hbm, ⟨15, _⟩ => ⟨S8x16, .i32⟩
  | .hbm, ⟨16, _⟩ => ⟨S_, .i32⟩
  | .hbm, ⟨17, _⟩ => ⟨S8x16, .i32⟩
  | .hbm, ⟨18, _⟩ => ⟨S8x16, .i32⟩
  | .hbm, ⟨19, _⟩ => ⟨S_, .i32⟩
  | .hbm, ⟨20, _⟩ => ⟨S8x16, .i32⟩
  | .hbm, ⟨21, _⟩ => ⟨S8x16, .i1⟩
  | .hbm, ⟨22, _⟩ => ⟨S_, .i32⟩
  | .hbm, ⟨23, _⟩ => ⟨S8x16, .i32⟩
  | .hbm, ⟨24, _⟩ => ⟨S8x16, .i32⟩
  | .hbm, ⟨25, _⟩ => ⟨S8x16, .i32⟩
  | .hbm, ⟨26, _⟩ => ⟨S8x16x1, .i32⟩
  | .hbm, ⟨27, _⟩ => ⟨S8x16x1x1x1, .f32⟩
  | .hbm, ⟨28, _⟩ => ⟨S_, .i32⟩
  | .hbm, ⟨29, _⟩ => ⟨S8x16, .i32⟩
  | .hbm, ⟨30, _⟩ => ⟨S8x16, .i1⟩
  | .hbm, ⟨31, _⟩ => ⟨S_, .i32⟩
  | .hbm, ⟨32, _⟩ => ⟨S8x16, .i32⟩
  | .hbm, ⟨33, _⟩ => ⟨S8x16, .i32⟩
  | .hbm, ⟨34, _⟩ => ⟨S8x16, .i32⟩
  | .hbm, ⟨35, _⟩ => ⟨S8x16x1, .i32⟩
  | .hbm, ⟨36, _⟩ => ⟨S8x16x1x1x1, .f32⟩
  | .hbm, ⟨37, _⟩ => ⟨S8x16x1x512x512, .f32⟩
  | .hbm, ⟨38, _⟩ => ⟨S8x16x1x512x512, .f32⟩
  | .hbm, ⟨39, _⟩ => ⟨S8x16x1x512x512, .f32⟩
  | .hbm, ⟨40, _⟩ => ⟨S8x16x1x512x512, .f32⟩
  | .hbm, ⟨41, _⟩ => ⟨S8x16x1x1x1, .i1⟩
  | .hbm, ⟨42, _⟩ => ⟨S8x16x1x512x512, .i1⟩
  | .hbm, ⟨43, _⟩ => ⟨S8x16x1x512x512, .f32⟩
  | _, _ => ⟨S8x16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_v0 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16x1x1x1_S8x16x1x512x512_0_1_2_3_4 : S8x16x1x1x1.BroadcastsInDim S8x16x1x512x512 (![0, 1, 2, 3, 4] : Fin 5 → Fin S8x16x1x512x512.rank)
  bcast_S8x16_S8x16x1x1x1_0_1 : S8x16.BroadcastsInDim S8x16x1x1x1 (![0, 1] : Fin 2 → Fin S8x16x1x1x1.rank)
  gather_S8x1x1x1_S8x16x1_S8x16x1x1x1_234_0_n_n_0_2_1111_wf : GatherDims.WF S8x1x1x1 S8x16x1 S8x16x1x1x1 [2, 3, 4] [0] [] [0] [] 2 ![1, 1, 1, 1]

variable [Facts₀]

def gather_S8x1x1x1_S8x16x1_S8x16x1x1x1_234_0_n_n_0_2_1111 : GatherDims S8x1x1x1 S8x16x1 S8x16x1x1x1 where
  offsetDims := [2, 3, 4]
  collapsedSliceDims := [0]
  operandBatchingDims := []
  startIndicesBatchingDims := []
  startIndexMap := [0]
  indexVectorDim := 2
  sliceSizes := ![1, 1, 1, 1]
  wf := gather_S8x1x1x1_S8x16x1_S8x16x1x1x1_234_0_n_n_0_2_1111_wf

class Facts : Prop extends Facts₀ where

variable [Facts]
-- ==== Proof.AffineSpec.lean ====
/-
  The mathematics both programs compute, stated once over literal shapes.

  An image stack `x : [8, 16, 1, 512, 512]`, two tables `weight, bias : [8, 1, 1, 1]` and one integer id per image
  `ids : [8, 16]`. An id is VALID when `0 ≤ id < 8`. Every id, valid or not, is clamped into `[0, 7]` (and a negative
  result would be wrapped by `+ 8`, which after the clamp never happens) and the table row at the clamped id is looked up:
  `looked t ids` is that lookup for every image, kept as the host's gather of the table at the row indices, never opened —
  both programs contain the same gather of the same indices, so nothing about which row it reads is needed.

  The result at image `(b, n)`, pixel `(h, w)` is
      `x · weight[id] + bias[id]`  where the id is valid,   `x` itself where it is not.
  One program selects between the two whole results; the other selects the COEFFICIENTS first — weight or 1, bias or 0 —
  and always computes `x · w + b`. They agree because `x · 1 + 0 = x` for every extended real `x`, the infinities
  included (`mul_one`, `add_zero`: no distributivity, no cancellation, so no finiteness is asked of the inputs):
  `fold_mask`.
-/
import Idealize.ShloMosaic.PureOps.Ideal
import Idealize.ShloMosaic.PureOps.Ideal.Laws
import Idealize.ShloMosaic.Lib.ValueIdx

noncomputable section

namespace Cert.AffineSpec

open Idealize.ShloMosaic Idealize.ShloMosaic.ValueIdx

/-! ## Shapes and their side conditions -/

/-- The image stack: batch, image, channel (one), height, width. -/
abbrev Img : Shape := ⟨5, ![8, 16, 1, 512, 512]⟩
/-- A coefficient table: one row per id. -/
abbrev Tab : Shape := ⟨4, ![8, 1, 1, 1]⟩
/-- One id per image. -/
abbrev Ids : Shape := ⟨2, ![8, 16]⟩
/-- The ids as a column of row indices. -/
abbrev Rows : Shape := ⟨3, ![8, 16, 1]⟩
/-- One coefficient per image. -/
abbrev Per : Shape := ⟨5, ![8, 16, 1, 1, 1]⟩
/-- A scalar. -/
abbrev Sc : Shape := ⟨0, ![]⟩

theorem sc_to_ids : Sc.BroadcastsInDim Ids (![] : Fin 0 → Fin Ids.rank) := by decide
theorem ids_to_rows : Ids.BroadcastsInDim Rows (![0, 1] : Fin 2 → Fin Rows.rank) := by decide
theorem lookup_wf : GatherDims.WF Tab Rows Per [2, 3, 4] [0] [] [0] [] 2 ![1, 1, 1, 1] := by decide

/-- The lookup's dimension numbers: row `rows[b, n, 0]` of the table, whole, lands at `[b, n, :, :, :]`. -/
def lookupDims : GatherDims Tab Rows Per where
  offsetDims := [2, 3, 4]
  collapsedSliceDims := [0]
  operandBatchingDims := []
  startIndicesBatchingDims := []
  startIndexMap := [0]
  indexVectorDim := 2
  sliceSizes := ![1, 1, 1, 1]
  wf := lookup_wf

/-! ## The shared integer side: validity and the row looked up -/

/-- `0 ≤ id` and `id < 8`, per image, as a bit. -/
def valid (ids : IVec Ids 32) : IVec Ids 1 :=
  andi (cmpi .sge ids (broadcastInDim Ids ![] sc_to_ids (constantI Sc 32 0#32)))
    (cmpi .slt ids (broadcastInDim Ids ![] sc_to_ids (constantI Sc 32 8#32)))

/-- The id clamped into `[0, 7]`: `min 7 (max 0 id)`. -/
def clamped (ids : IVec Ids 32) : IVec Ids 32 :=
  minsi (broadcastInDim Ids ![] sc_to_ids (id (constantI Sc 32 7#32)))
    (maxsi (broadcastInDim Ids ![] sc_to_ids (id (constantI Sc 32 0#32))) ids)

/-- The row index: the clamped id, a negative one moved up by 8, as a column. -/
def rows (ids : IVec Ids 32) : IVec Rows 32 :=
  broadcastInDim Rows ![0, 1] ids_to_rows
    (select (cmpi .slt (clamped ids) (broadcastInDim Ids ![] sc_to_ids (constantI Sc 32 0#32)))
      (addi (clamped ids) (broadcastInDim Ids ![] sc_to_ids (constantI Sc 32 8#32)))
      (clamped ids))

variable {F : FTy → Type} [FloatOps F]

/-- The table's row at each image's row index: one coefficient per image. -/
def looked (t : FVec F Tab .f32) (ids : IVec Ids 32) : FVec F Per .f32 :=
  Host.gather lookupDims t (rows ids)

/-! ## The result -/

/-- Image `(b, n)`'s coefficient sits at `[b, n, 0, 0, 0]`. -/
abbrev at0 (i : Img.Idx) : Per.Idx := ix5 (i 0) (i 1) (0 : Fin 1) (0 : Fin 1) (0 : Fin 1)
/-- Image `(b, n)`'s id sits at `[b, n]`. -/
abbrev img (i : Img.Idx) : Ids.Idx := ix2 (i 0) (i 1)

/-- THE RESULT, index by index: `x · weight[id] + bias[id]` where the image's id is valid, `x` where it is not. -/
def out (x : FVec Ideal Img .f32) (wt bt : FVec Ideal Tab .f32) (ids : IVec Ids 32) : FVec Ideal Img .f32 := fun i =>
  Scalar.select (valid ids (img i)) (x i * looked wt ids (at0 i) + looked bt ids (at0 i)) (x i)

/-! ## The one law -/

/-- The word `0x3F800000` is the real number one: sign 0, exponent 127 (the bias), fraction 0. -/
theorem one_word : Ideal.ofBits .f32 0x3F800000#32 = 1 := by
  simp [Ideal.ofBits, Ideal.ieee, -EReal.coe_mul]
  norm_num

/-- Selecting the coefficients (the weight or one, the bias or zero) and then computing `x · w + b` is selecting between
    `x · w + b` and `x`: on the unselected side `x · 1 + 0 = x`, for every extended real. -/
theorem fold_mask (c : BitVec 1) (x w b : EReal) :
    x * Scalar.select c w (Ideal.ofBits .f32 0x3F800000#32) + Scalar.select c b (Ideal.ofBits .f32 0x00000000#32)
      = Scalar.select c (x * w + b) x := by
  rcases BitVec.eq_zero_or_eq_one c with rfl | rfl
  · rw [select_zero, select_zero, select_zero, one_word, Ideal.ofBits_zero_f32, mul_one, add_zero]
  · rw [select_one, select_one, select_one]

end Cert.AffineSpec

end
-- ==== Proof.RefAffine.lean ====
/-
  The reference program computes `AffineSpec.out`.

  Read one operation at a time at an index `i = (b, n, 0, h, w)`: the final select takes its condition from the validity
  bit of image `(b, n)` (two broadcasts: `[8, 16] → [8, 16, 1, 1, 1] → [8, 16, 1, 512, 512]`, each keeping `b` and `n` and
  sending the unit axes to 0), its first branch is `x i · W + B` with `W`, `B` the looked-up weight and bias of image
  `(b, n)` broadcast from `[8, 16, 1, 1, 1]`, and its second branch is `x i`. The validity bit and the two lookups are,
  operation for operation, the shared terms of the specification.
-/
import proofs.«135835_j23072564314709_2_alg».proof.Proof.Gen.ReferenceIdeal.Read
import proofs.«135835_j23072564314709_2_alg».proof.Proof.AffineSpec
import Idealize.ShloMosaic.Lib.ValueIdx

noncomputable section

namespace Cert.ReferenceIdeal.Affine

open Cert.ReferenceIdeal Cert.ReferenceIdeal.Gen Cert.ReferenceIdeal.Read
open Idealize.ShloMosaic Idealize.ShloMosaic.ValueIdx

/-- The reference's validity mask is the specification's. -/
theorem valid_eq (x3 : IVec S8x16 32) : val_main_v4 (F := Ideal) x3 = Cert.AffineSpec.valid x3 := rfl

/-- The reference's looked-up weights are the specification's lookup of the weight table. -/
theorem weight_eq (x1 : FVec Ideal S8x1x1x1 .f32) (x3 : IVec S8x16 32) :
    val_main_v12 (F := Ideal) x1 x3 = Cert.AffineSpec.looked x1 x3 := rfl

/-- The reference's looked-up biases are the specification's lookup of the bias table (the second copy of the row
    indices is the first, operation for operation). -/
theorem bias_eq (x2 : FVec Ideal S8x1x1x1 .f32) (x3 : IVec S8x16 32) :
    val_main_v19 (F := Ideal) x2 x3 = Cert.AffineSpec.looked x2 x3 := rfl

/-- THE REFERENCE'S RESULT is the specification's, index by index. -/
theorem result_eq (x0 : FVec Ideal S8x16x1x512x512 .f32) (x1 x2 : FVec Ideal S8x1x1x1 .f32) (x3 : IVec S8x16 32) :
    val_main_v25 (F := Ideal) x0 x1 x2 x3 = Cert.AffineSpec.out x0 x1 x2 x3 := by
  funext i
  have e1 : idx_main_v24 (idx_main_call1_v0 i) = Cert.AffineSpec.img i :=
    funext fun a => Fin.ext (by match a with | ⟨0, _⟩ => rfl | ⟨1, _⟩ => rfl)
  have e2 : idx_main_v20 i = Cert.AffineSpec.at0 i :=
    funext fun a => Fin.ext (by match a with | ⟨0, _⟩ => rfl | ⟨1, _⟩ => rfl | ⟨2, _⟩ => rfl | ⟨3, _⟩ => rfl | ⟨4, _⟩ => rfl)
  have e3 : idx_main_v22 i = Cert.AffineSpec.at0 i :=
    funext fun a => Fin.ext (by match a with | ⟨0, _⟩ => rfl | ⟨1, _⟩ => rfl | ⟨2, _⟩ => rfl | ⟨3, _⟩ => rfl | ⟨4, _⟩ => rfl)
  rw [val_main_v25_apply, val_main_call1_v0_apply, val_main_v24_apply, val_main_v23_apply, val_main_v21_apply,
    val_main_v20_apply, val_main_v22_apply, e1, e2, e3, valid_eq, weight_eq, bias_eq]
  rfl

end Cert.ReferenceIdeal.Affine

end
-- ==== Proof.KernelRows.lean ====
/-
  The kernel's output array after the run, as ONE function of the three arrays its windows read.

  The pallas_call walks 16 grid points. At point `t` it stages rows `8t … 8t+7` of a `[128, 512, 512]` array `x` (128
  images, flattened) and of two `[128, 1]` columns `w`, `b` (one coefficient per image), and writes back rows
  `8t … 8t+7` of the result. The body broadcasts each column entry over its image and computes `x · w + b`.
  So row `r` of the result depends on row `r` of `x` and entry `r` of `w` and `b` only: the block a point writes back is
  a block of the whole-array function `rowAffine x w b`, and since the 16 blocks of 8 rows tile the 128 rows, the array
  ends holding that function.
-/
import proofs.«135835_j23072564314709_2_alg».proof.Proof.Gen.KernelIdeal.Frame
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The function -/

/-- Every pixel of image `r` scaled by the image's coefficient `w r` and shifted by `b r`. -/
def rowAffine (x : FVec Ideal S128x512x512 .f32) (w b : FVec Ideal S128x1 .f32) : FVec Ideal S128x512x512 .f32 :=
  fun i => x i * w (ix2 (i 0) (0 : Fin 1)) + b (ix2 (i 0) (0 : Fin 1))

/-! ## The body's arithmetic at an index -/

/-- A column `[8, 1]` viewed `[8, 1, 1]` and broadcast over `[8, 512, 512]` reads, at `(r, h, w)`, its entry `r`:
    the broadcast keeps the leading coordinate and sends the two unit axes to 0, and the cast keeps the row-major position. -/
theorem column_apply {α : Type} (v : S8x1.Idx → α) (r : Fin 8) (h w : Fin 512) :
    broadcastTo S8x512x512 (shapeCast S8x1x1 (shapeCast S8x1 v shapeCasts_S8x1_S8x1) shapeCasts_S8x1_S8x1x1)
      broadcasts_S8x1x1_S8x512x512 (ix3 r h w) = v (ix2 r (0 : Fin 1)) := by
  rw [shapeCast_self]
  refine (broadcastTo_apply _ broadcasts_S8x1x1_S8x512x512 (ix3 r h w) (ix3 r (0 : Fin 1) (0 : Fin 1)) ?_).trans ?_
  · intro a
    match a with
    | ⟨0, _⟩ => show r.val = if (8 : Nat) = 1 then 0 else r.val; rw [if_neg (by decide)]
    | ⟨1, _⟩ => show 0 = if (1 : Nat) = 1 then 0 else h.val; rw [if_pos rfl]
    | ⟨2, _⟩ => show 0 = if (1 : Nat) = 1 then 0 else w.val; rw [if_pos rfl]
  · refine shapeCast_apply v shapeCasts_S8x1_S8x1x1 _ (ix2 r (0 : Fin 1)) ?_
    rw [Shape.rowMajor_val_two, Shape.rowMajor_val_three]
    show r.val * 1 + 0 = (r.val * 1 + 0) * 1 + 0
    omega

/-- The stored value at `(r, h, w)` of the block: the pixel times the row's first column entry plus the row's second. -/
theorem pay_apply (x0 : Vec Ideal S8x512x512 .f32) (x1 x2 : Vec Ideal S8x1 .f32) (r : Fin 8) (h w : Fin 512) :
    k0_pay1 (F := Ideal) x0 x1 x2 (ix3 r h w) = x0 (ix3 r h w) * x1 (ix2 r (0 : Fin 1)) + x2 (ix2 r (0 : Fin 1)) := by
  unfold k0_pay1
  rw [addf_apply, mulf_apply, shapeCast_self, column_apply, column_apply]

/-! ## What a point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: every window's block row is the output's, every other block coordinate is 0,
    and the output's block row stays below 16. -/
theorem index_facts : ∀ t : Fin cfg0.N,
    win0_0.index t (0 : Fin 3) = win0_3.index t (0 : Fin 3)
    ∧ win0_0.index t (1 : Fin 3) = 0 ∧ win0_0.index t (2 : Fin 3) = 0
    ∧ win0_1.index t (0 : Fin 2) = win0_3.index t (0 : Fin 3) ∧ win0_1.index t (1 : Fin 2) = 0
    ∧ win0_2.index t (0 : Fin 2) = win0_3.index t (0 : Fin 3) ∧ win0_2.index t (1 : Fin 2) = 0
    ∧ win0_3.index t (1 : Fin 3) = 0 ∧ win0_3.index t (2 : Fin 3) = 0
    ∧ win0_3.index t (0 : Fin 3) ≤ 15 :=
  (by decide +kernel : ∀ t : Fin grid0.N, _)

/-- Every block row is some point's. -/
theorem index_onto : ∀ q : Fin 16, ∃ t : Fin cfg0.N, win0_3.index t = ![q.val, 0, 0] :=
  (by decide +kernel : ∀ q : Fin 16, ∃ t : Fin grid0.N, win0_3.index t = ![q.val, 0, 0])

/-- WHAT POINT `t` WRITES BACK is block `t` of `rowAffine` of the three arrays as the region finds them. -/
theorem flushed_eq (c : Dev nD) (t : Fin cfg0.N) :
    (dats m 0 c).flushed 3 t
      = ((cfg0.win 3).blk t).view.read (Elt Ideal) (rowAffine (V m c main_v25) (V m c main_v26) (V m c main_v27)) := by
  show (cfg0.win 3).cut (grid0.coords t) ((dats m 0 c).after 3 t) = _
  rw [after0_3]
  unfold out0_3
  rw [View.canon_unit_zero zeros3]
  simp only [View.ld_unit_zero (S := S8x512x512) zeros3, View.ld_unit_zero (S := S8x1) zeros2]
  obtain ⟨e0, e1, e2, e3, e4, e5, e6, e7, e8, e9⟩ := index_facts t
  funext j
  obtain ⟨r, h, w, rfl⟩ : ∃ (r : Fin 8) (h w : Fin 512), j = ix3 r h w := ⟨j 0, j 1, j 2, eq_ix3 j⟩
  show k0_pay1 (F := Ideal) (iblk m c 0 t) (iblk m c 1 t) (iblk m c 2 t) (ix3 r h w) = _
  refine (pay_apply (iblk m c 0 t) (iblk m c 1 t) (iblk m c 2 t) r h w).trans ?_
  show FloatOps.addf (F := Ideal) (φ := .f32)
        (FloatOps.mulf (F := Ideal) (φ := .f32) (V m c main_v25 (((cfg0.win 0).blk t).view.emb (ix3 r h w)))
          (V m c main_v26 (((cfg0.win 1).blk t).view.emb (ix2 r (0 : Fin 1)))))
        (V m c main_v27 (((cfg0.win 2).blk t).view.emb (ix2 r (0 : Fin 1))))
      = FloatOps.addf (F := Ideal) (φ := .f32)
        (FloatOps.mulf (F := Ideal) (φ := .f32) (V m c main_v25 (((cfg0.win 3).blk t).view.emb (ix3 r h w)))
          (V m c main_v26 (ix2 ((((cfg0.win 3).blk t).view.emb (ix3 r h w)) 0) (0 : Fin 1))))
        (V m c main_v27 (ix2 ((((cfg0.win 3).blk t).view.emb (ix3 r h w)) 0) (0 : Fin 1)))
  have hx : ((cfg0.win 0).blk t).view.emb (ix3 r h w) = ((cfg0.win 3).blk t).view.emb (ix3 r h w) := by
    funext a; apply Fin.ext
    match a with
    | ⟨0, _⟩ => show win0_0.index t (0 : Fin 3) * 8 + 1 * r.val = win0_3.index t (0 : Fin 3) * 8 + 1 * r.val; omega
    | ⟨1, _⟩ => show win0_0.index t (1 : Fin 3) * 512 + 1 * h.val = win0_3.index t (1 : Fin 3) * 512 + 1 * h.val; omega
    | ⟨2, _⟩ => show win0_0.index t (2 : Fin 3) * 512 + 1 * w.val = win0_3.index t (2 : Fin 3) * 512 + 1 * w.val; omega
  have hw : ((cfg0.win 1).blk t).view.emb (ix2 r (0 : Fin 1))
      = ix2 ((((cfg0.win 3).blk t).view.emb (ix3 r h w)) 0) (0 : Fin 1) := by
    funext a; apply Fin.ext
    match a with
    | ⟨0, _⟩ => show win0_1.index t (0 : Fin 2) * 8 + 1 * r.val = win0_3.index t (0 : Fin 3) * 8 + 1 * r.val; omega
    | ⟨1, _⟩ => show win0_1.index t (1 : Fin 2) * 1 + 1 * 0 = 0; omega
  have hb : ((cfg0.win 2).blk t).view.emb (ix2 r (0 : Fin 1))
      = ix2 ((((cfg0.win 3).blk t).view.emb (ix3 r h w)) 0) (0 : Fin 1) := by
    funext a; apply Fin.ext
    match a with
    | ⟨0, _⟩ => show win0_2.index t (0 : Fin 2) * 8 + 1 * r.val = win0_3.index t (0 : Fin 3) * 8 + 1 * r.val; omega
    | ⟨1, _⟩ => show win0_2.index t (1 : Fin 2) * 1 + 1 * 0 = 0; omega
  rw [hx, hw, hb]
  rfl

/-! ## The blocks tile the array -/

/-- An index of the array is in point `t`'s block iff each coordinate is in the block's range on its axis. -/
theorem mem_block (t : Fin cfg0.N) (i : S128x512x512.Idx) :
    i ∈ ((cfg0.win 3).blk t).view.set ↔ ∀ a : Fin 3, win0_3.index t a * S8x512x512.size a ≤ (i a).val
      ∧ (i a).val < win0_3.index t a * S8x512x512.size a + S8x512x512.size a := by
  show i ∈ ((View.whole main_v28).slice (win0_3.rect t)).set ↔ _
  rw [View.set_slice_whole, Rect.mem_set_unit]
  exact Iff.rfl

/-- Row `r` is written back by the point whose block row is `r / 8`. -/
theorem covered (i : S128x512x512.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 512 := (i 2).isLt
  obtain ⟨t, ht⟩ := index_onto ⟨(i 0).val / 8, by omega⟩
  have q0 : win0_3.index t (0 : Fin 3) = (i 0).val / 8 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE ARRAY after the run is `rowAffine` of the three arrays as the region finds them. -/
theorem final (c : Dev nD) :
    (dats m 0 c).arrAt 3 cfg0.N = rowAffine (V m c main_v25) (V m c main_v26) (V m c main_v27) :=
  (dats m 0 c).arrAt_eq_of_cover 3 _ (fun t _ => flushed_eq m c t) covered

end Cert.KernelIdeal.Rows

end
-- ==== Proof.KernelHost.lean ====
/-
  The host operations around the kernel's one region, read as terms of the argument arrays.

  BEFORE the region the program computes, per image, the validity bit of its id and the looked-up weight and bias, then
  the EFFECTIVE coefficients — the weight where the id is valid and 1 where it is not, the bias where valid and 0 where
  not —, and flattens: the images `[8, 16, 1, 512, 512] → [128, 512, 512]`, each coefficient array
  `[8, 16, 1, 1, 1] → [128, 1]`. These three flattened arrays are what the region's windows read (`entry_x`, `entry_w`,
  `entry_b`). AFTER the region one reshape takes the `[128, 512, 512]` result back to `[8, 16, 1, 512, 512]` (`tail_eq`).
  The validity bit and the lookups are the specification's shared terms, operation for operation.
-/
import proofs.«135835_j23072564314709_2_alg».proof.Proof.Gen.KernelIdeal.Frame
import proofs.«135835_j23072564314709_2_alg».proof.Proof.AffineSpec
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-! ## The effective coefficients -/

/-- Per image: the looked-up weight where the id is valid, the constant `0x3F800000` (one) where it is not. -/
def effWeight (wt : FVec Ideal S8x1x1x1 .f32) (ids : IVec S8x16 32) : FVec Ideal S8x16x1x1x1 .f32 :=
  select (broadcastInDim S8x16x1x1x1 ![0, 1] bcast_S8x16_S8x16x1x1x1_0_1 (Cert.AffineSpec.valid ids))
    (Cert.AffineSpec.looked wt ids)
    (broadcastInDim S8x16x1x1x1 ![] bcast_S_S8x16x1x1x1 (constant (F := Ideal) S_ .f32 0x3F800000#32))

/-- Per image: the looked-up bias where the id is valid, the constant `0x00000000` (zero) where it is not. -/
def effBias (bt : FVec Ideal S8x1x1x1 .f32) (ids : IVec S8x16 32) : FVec Ideal S8x16x1x1x1 .f32 :=
  select (broadcastInDim S8x16x1x1x1 ![0, 1] bcast_S8x16_S8x16x1x1x1_0_1 (Cert.AffineSpec.valid ids))
    (Cert.AffineSpec.looked bt ids)
    (broadcastInDim S8x16x1x1x1 ![] bcast_S_S8x16x1x1x1 (constant (F := Ideal) S_ .f32 0x00000000#32))

/-! ## The arrays the windows read, as the region finds them -/

/-- Window 0's array is the image stack, flattened. -/
theorem entry_x (c : Dev nD) :
    (V m c main_v25 : S128x512x512.Idx → EReal)
      = shapeCast S128x512x512 (m ((c : Thread nD τ).loc main_arg0)) shapeCasts_S8x16x1x512x512_S128x512x512 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- Window 1's array is the effective weights, flattened. -/
theorem entry_w (c : Dev nD) :
    (V m c main_v26 : S128x1.Idx → EReal)
      = shapeCast S128x1 (effWeight (m ((c : Thread nD τ).loc main_arg1)) (m ((c : Thread nD τ).loc main_arg3)))
          shapeCasts_S8x16x1x1x1_S128x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- Window 2's array is the effective biases, flattened. -/
theorem entry_b (c : Dev nD) :
    (V m c main_v27 : S128x1.Idx → EReal)
      = shapeCast S128x1 (effBias (m ((c : Thread nD τ).loc main_arg2)) (m ((c : Thread nD τ).loc main_arg3)))
          shapeCasts_S8x16x1x1x1_S128x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## The line after the region -/

/-- The program's result is the region's output array, reshaped back to the image stack's shape. -/
theorem tail_eq (c : Dev nD) :
    Pipeline.afterTail₀ cfgs (dats m) 0 (V0 m) [hostOps1] c main_v29
      = shapeCast S8x16x1x512x512 ((dats m 0 c).arrAt 3 cfg0.N) shapeCasts_S128x512x512_S8x16x1x512x512 := by
  unfold Pipeline.afterTail₀
  show StableHlo.after hostOps1 _ (Proc.devRef .tc main_v29) = _
  after_results
  exact congrArg (fun X => shapeCast S8x16x1x512x512 X shapeCasts_S128x512x512_S8x16x1x512x512)
    (Pipeline.withArrays_arr spec0 launch0.win.arr_inj c _ _ 3)

end Cert.KernelIdeal.Host

end
-- ==== Proof.KernelAffine.lean ====
/-
  The kernel program's result is `AffineSpec.out` of its arguments.

  Three steps. (1) Flatten, compute by rows, unflatten: image `(b, n)` is row `16 b + n` of the flattened stack, and the
  same row of each flattened coefficient column, because every reshape here keeps the row-major position; so the result at
  `(b, n, 0, h, w)` is `x · w' + b'` with `w'`, `b'` the image's EFFECTIVE coefficients (`unflatten_rowAffine`).
  (2) The effective weight of an image is the looked-up weight if its id is valid and the word for one if not, the
  effective bias the looked-up bias or the word for zero (`effWeight_apply`, `effBias_apply`: a select read at an index,
  its mask a broadcast of the per-image validity bit, its constant a broadcast scalar). (3) Selecting the coefficients and
  then computing is selecting between the computed value and `x` (`AffineSpec.fold_mask`).
  Then the run: the frame run's post names the program's result as the line after the region applied to the region's
  output array; that array is the row function of the three staged arrays, and those are the flattened arguments.
-/
import proofs.«135835_j23072564314709_2_alg».proof.Proof.KernelRows
import proofs.«135835_j23072564314709_2_alg».proof.Proof.KernelHost
import proofs.«135835_j23072564314709_2_alg».proof.Proof.AffineSpec
import Idealize.ShloMosaic.Lib.Pipeline.Value
import Idealize.ShloMosaic.Lib.ValueIdx

noncomputable section

namespace Cert.KernelIdeal.Affine

open Cert.KernelIdeal Cert.KernelIdeal.Gen Idealize.ShloMosaic Idealize.ShloMosaic.TcCoe Idealize.SL.Sem
open Idealize.ShloMosaic.ValueIdx
open Idealize.ShloMosaic.Pipeline (Dat)

/-! ## Flatten, compute by rows, unflatten -/

/-- At `(b, n, z, h, w)` the unflattened row function of the flattened stack and the flattened per-image coefficients is
    the pixel times the image's first coefficient plus its second. -/
theorem unflatten_rowAffine (x : FVec Ideal S8x16x1x512x512 .f32) (we be : FVec Ideal S8x16x1x1x1 .f32)
    (i : S8x16x1x512x512.Idx) :
    shapeCast S8x16x1x512x512
        (Rows.rowAffine (shapeCast S128x512x512 x shapeCasts_S8x16x1x512x512_S128x512x512)
          (shapeCast S128x1 we shapeCasts_S8x16x1x1x1_S128x1) (shapeCast S128x1 be shapeCasts_S8x16x1x1x1_S128x1))
        shapeCasts_S128x512x512_S8x16x1x512x512 i
      = x i * we (Cert.AffineSpec.at0 i) + be (Cert.AffineSpec.at0 i) := by
  obtain ⟨b, n, z, h, w, rfl⟩ : ∃ (b : Fin 8) (n : Fin 16) (z : Fin 1) (h w : Fin 512), i = ix5 b n z h w :=
    ⟨i 0, i 1, i 2, i 3, i 4, eq_ix5 i⟩
  have hz : z.val = 0 := by have := z.isLt; omega
  have hb : b.val < 8 := b.isLt
  have hn : n.val < 16 := n.isLt
  have hR : b.val * 16 + n.val < 128 := by omega
  -- the image's row in the flattened arrays
  refine (shapeCast_apply _ shapeCasts_S128x512x512_S8x16x1x512x512 (ix5 b n z h w)
    (ix3 (⟨b.val * 16 + n.val, hR⟩ : Fin 128) h w) ?_).trans ?_
  · rw [Shape.rowMajor_val_three, Shape.rowMajor_val_five]
    show ((b.val * 16 + n.val) * 512 + h.val) * 512 + w.val
      = (((b.val * 16 + n.val) * 1 + z.val) * 512 + h.val) * 512 + w.val
    rw [hz]; omega
  · have ex : shapeCast S128x512x512 x shapeCasts_S8x16x1x512x512_S128x512x512
          (ix3 (⟨b.val * 16 + n.val, hR⟩ : Fin 128) h w) = x (ix5 b n z h w) :=
      shapeCast_apply x _ _ _ (by
        rw [Shape.rowMajor_val_three, Shape.rowMajor_val_five]
        show (((b.val * 16 + n.val) * 1 + z.val) * 512 + h.val) * 512 + w.val
          = ((b.val * 16 + n.val) * 512 + h.val) * 512 + w.val
        rw [hz]; omega)
    have ew : shapeCast S128x1 we shapeCasts_S8x16x1x1x1_S128x1 (ix2 (⟨b.val * 16 + n.val, hR⟩ : Fin 128) (0 : Fin 1))
          = we (ix5 b n (0 : Fin 1) (0 : Fin 1) (0 : Fin 1)) :=
      shapeCast_apply we _ _ _ (by
        rw [Shape.rowMajor_val_two, Shape.rowMajor_val_five]
        show (((b.val * 16 + n.val) * 1 + 0) * 1 + 0) * 1 + 0 = (b.val * 16 + n.val) * 1 + 0
        omega)
    have eb : shapeCast S128x1 be shapeCasts_S8x16x1x1x1_S128x1 (ix2 (⟨b.val * 16 + n.val, hR⟩ : Fin 128) (0 : Fin 1))
          = be (ix5 b n (0 : Fin 1) (0 : Fin 1) (0 : Fin 1)) :=
      shapeCast_apply be _ _ _ (by
        rw [Shape.rowMajor_val_two, Shape.rowMajor_val_five]
        show (((b.val * 16 + n.val) * 1 + 0) * 1 + 0) * 1 + 0 = (b.val * 16 + n.val) * 1 + 0
        omega)
    show shapeCast S128x512x512 x shapeCasts_S8x16x1x512x512_S128x512x512 (ix3 (⟨b.val * 16 + n.val, hR⟩ : Fin 128) h w)
          * shapeCast S128x1 we shapeCasts_S8x16x1x1x1_S128x1 (ix2 (⟨b.val * 16 + n.val, hR⟩ : Fin 128) (0 : Fin 1))
          + shapeCast S128x1 be shapeCasts_S8x16x1x1x1_S128x1 (ix2 (⟨b.val * 16 + n.val, hR⟩ : Fin 128) (0 : Fin 1))
        = x (ix5 b n z h w) * we (ix5 b n (0 : Fin 1) (0 : Fin 1) (0 : Fin 1))
          + be (ix5 b n (0 : Fin 1) (0 : Fin 1) (0 : Fin 1))
    rw [ex, ew, eb]

/-! ## The effective coefficients at an image -/

/-- The per-image validity bit, broadcast to the coefficient shape, read at an image's coefficient index. -/
theorem mask_apply (ids : IVec S8x16 32) (i : S8x16x1x512x512.Idx) :
    broadcastInDim S8x16x1x1x1 ![0, 1] bcast_S8x16_S8x16x1x1x1_0_1 (Cert.AffineSpec.valid ids) (Cert.AffineSpec.at0 i)
      = Cert.AffineSpec.valid ids (Cert.AffineSpec.img i) :=
  broadcastInDim_apply _ bcast_S8x16_S8x16x1x1x1_0_1 _ _ _ (fun a => match a with
    | ⟨0, _⟩ => by show (i 0).val = if (8 : Nat) = 1 then 0 else (i 0).val; rw [if_neg (by decide)]
    | ⟨1, _⟩ => by show (i 1).val = if (16 : Nat) = 1 then 0 else (i 1).val; rw [if_neg (by decide)])

/-- A scalar constant broadcast to the coefficient shape reads the extended real its word encodes, everywhere. -/
theorem splat_apply (word : BitVec 32) (j : S8x16x1x1x1.Idx) :
    broadcastInDim S8x16x1x1x1 ![] bcast_S_S8x16x1x1x1 (constant (F := Ideal) S_ .f32 word) j = Ideal.ofBits .f32 word :=
  broadcastInDim_apply _ bcast_S_S8x16x1x1x1 _ j ix0 (fun a => a.elim0)

/-- An image's effective weight: its looked-up weight if its id is valid, the word for one if not. -/
theorem effWeight_apply (wt : FVec Ideal S8x1x1x1 .f32) (ids : IVec S8x16 32) (i : S8x16x1x512x512.Idx) :
    Host.effWeight wt ids (Cert.AffineSpec.at0 i)
      = Scalar.select (Cert.AffineSpec.valid ids (Cert.AffineSpec.img i))
          (Cert.AffineSpec.looked wt ids (Cert.AffineSpec.at0 i)) (Ideal.ofBits .f32 0x3F800000#32) := by
  unfold Host.effWeight
  rw [select_apply, mask_apply, splat_apply]

/-- An image's effective bias: its looked-up bias if its id is valid, the word for zero if not. -/
theorem effBias_apply (bt : FVec Ideal S8x1x1x1 .f32) (ids : IVec S8x16 32) (i : S8x16x1x512x512.Idx) :
    Host.effBias bt ids (Cert.AffineSpec.at0 i)
      = Scalar.select (Cert.AffineSpec.valid ids (Cert.AffineSpec.img i))
          (Cert.AffineSpec.looked bt ids (Cert.AffineSpec.at0 i)) (Ideal.ofBits .f32 0x00000000#32) := by
  unfold Host.effBias
  rw [select_apply, mask_apply, splat_apply]

/-! ## The program's result is the specification's -/

/-- Flattening, the row function over the effective coefficients, and unflattening is `AffineSpec.out`. -/
theorem result_eq (x : FVec Ideal S8x16x1x512x512 .f32) (wt bt : FVec Ideal S8x1x1x1 .f32) (ids : IVec S8x16 32) :
    shapeCast S8x16x1x512x512
        (Rows.rowAffine (shapeCast S128x512x512 x shapeCasts_S8x16x1x512x512_S128x512x512)
          (shapeCast S128x1 (Host.effWeight wt ids) shapeCasts_S8x16x1x1x1_S128x1)
          (shapeCast S128x1 (Host.effBias bt ids) shapeCasts_S8x16x1x1x1_S128x1))
        shapeCasts_S128x512x512_S8x16x1x512x512
      = Cert.AffineSpec.out x wt bt ids := by
  funext i
  rw [unflatten_rowAffine, effWeight_apply, effBias_apply]
  exact Cert.AffineSpec.fold_mask _ _ _ _

/-! ## The run -/

variable (m : (ℓ : Loc nD τ sig) → Buf (Elt Ideal) ℓ) (ρ : Dev nD → PrngReg)

/-- Every weakly fair execution of the program terminates with its result at `AffineSpec.out` of the argument arrays
    and the arguments unchanged. -/
theorem run : θ_run defs (onTc (τ := τ) (main (F := Ideal))) ⟨m, fun _ => 0, ρ⟩ fun r => ∀ c : Dev nD,
      r.2.mem ((c.tc : Thread nD τ).loc main_v29)
        = Cert.AffineSpec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v29 (Pipeline.mem_restRefs_of main_v29 (by decide) (by decide))).trans
        ((Host.tail_eq m c).trans (by
          rw [Rows.final m c, Host.entry_x m c, Host.entry_w m c, Host.entry_b m c]
          exact result_eq _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Affine

end
-- ==== Proof.lean ====
/- The proof of `Cert.Claim`: per-image affine normalisation with a table lookup, a Pallas kernel against its jnp reference.

   Each of 128 images `x[b, n]` carries an integer id. Where the id is valid (`0 ≤ id < 8`) the result is
   `x · weight[id] + bias[id]`, where it is not the result is `x`. The reference selects between those two results; the
   kernel program selects the coefficients on the host (weight or 1, bias or 0), flattens the image stack to 128 rows, and
   its kernel computes `x · w + b` on blocks of 8 rows. Over the extended reals the two agree everywhere, the infinities
   included, because `x · 1 + 0 = x` (Proof/AffineSpec.lean, `fold_mask`); so the proof never uses the inputs' finiteness.

   The modules: Proof/AffineSpec.lean — the result as one function `out` of the four arguments, and the one law;
   Proof/RefAffine.lean — the reference's result is `out` (its generated run, read one operation at a time);
   Proof/KernelRows.lean — the region's output array is a row function of the three arrays its windows read;
   Proof/KernelHost.lean — those three arrays, and the reshape after the region, as terms of the arguments;
   Proof/KernelAffine.lean — the flatten / unflatten index algebra, and the kernel program's run with its result at `out`.
   The three frames are the generated frame runs; `preserves` has nothing to state (the idealisation rewrote nothing);
   `algebraic` pairs the two runs at the same function of arguments that agree. -/
import proofs.«135835_j23072564314709_2_alg».proof.Defs
import proofs.«135835_j23072564314709_2_alg».proof.Proof.Gen.Kernel
import proofs.«135835_j23072564314709_2_alg».proof.Proof.Gen.Kernel.Skeleton
import proofs.«135835_j23072564314709_2_alg».proof.Proof.Gen.Kernel.Launch
import proofs.«135835_j23072564314709_2_alg».proof.Proof.Gen.Kernel.Points
import proofs.«135835_j23072564314709_2_alg».proof.Proof.Gen.Kernel.Frame
import proofs.«135835_j23072564314709_2_alg».proof.Proof.Gen.KernelIdeal
import proofs.«135835_j23072564314709_2_alg».proof.Proof.Gen.KernelIdeal.Skeleton
import proofs.«135835_j23072564314709_2_alg».proof.Proof.Gen.KernelIdeal.Launch
import proofs.«135835_j23072564314709_2_alg».proof.Proof.Gen.KernelIdeal.Points
import proofs.«135835_j23072564314709_2_alg».proof.Proof.Gen.KernelIdeal.Frame
import proofs.«135835_j23072564314709_2_alg».proof.Proof.Gen.ReferenceIdeal
import proofs.«135835_j23072564314709_2_alg».proof.Proof.Gen.ReferenceIdeal.Run
import proofs.«135835_j23072564314709_2_alg».proof.Proof.Gen.ReferenceIdeal.Read
import proofs.«135835_j23072564314709_2_alg».proof.Proof.Gen.Pre_finite_inputs
import proofs.«135835_j23072564314709_2_alg».proof.Proof.AffineSpec
import proofs.«135835_j23072564314709_2_alg».proof.Proof.RefAffine
import proofs.«135835_j23072564314709_2_alg».proof.Proof.KernelAffine
import Idealize.ShloMosaic.Adequacy
import Idealize.ShloMosaic.Init

noncomputable section

namespace Cert.Proof

open Idealize.ShloMosaic Idealize.SL.Sem

/-- The kernel program as printed runs and leaves its arguments unchanged: its generated frame run. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation: there is nothing to preserve. -/
theorem preserves : Cert.preserves_Kernel_KernelIdeal := trivial

/-- Both programs end with `AffineSpec.out` of their arguments, and the arguments agree. -/
theorem algebraic : Cert.algebraic_KernelIdeal_ReferenceIdeal := by
  intro m ρ m' ρ' _ hagree
  refine ⟨_, Cert.KernelIdeal.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Affine.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
